-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S12000x128 : Shape := ⟨2, ![12000, 128]⟩
abbrev S10000x12000 : Shape := ⟨2, ![10000, 12000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S12000x128 : S_.BroadcastsInDim S12000x128 (![] : Fin 0 → Fin S12000x128.rank)
  reducesTo_S12000x128_S_d0_1 : S12000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S12000x128 .f32) (main_arg2 : IVec S10000x12000 32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S12000x128 .f32 := Host.absf main_arg1
  let main_cst_0 : FVec F S_ .f32 := constant S_ .f32 0x7F800000#32
  let main_v5 : FVec F S12000x128 .f32 := broadcastInDim S12000x128 ![] bcast_S_S12000x128 main_cst_0
  let main_v6 : IVec S12000x128 1 := cmpf .olt main_v4 main_v5
  let main_c_1 : IVec S_ 1 := constantI S_ 1 1#1
  let main_v7 : IVec S_ 1 := (fun x v => Host.reduce IntOp.andi x v reducesTo_S12000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S12000x128 : Shape := ⟨2, ![12000, 128]⟩
abbrev S10000x12000 : Shape := ⟨2, ![10000, 12000]⟩
abbrev S128x128 : Shape := ⟨2, ![128, 128]⟩
abbrev S128 : Shape := ⟨1, ![128]⟩
abbrev S1x128 : Shape := ⟨2, ![1, 128]⟩
abbrev S128x12000 : Shape := ⟨2, ![128, 12000]⟩
abbrev S80x128 : Shape := ⟨2, ![80, 128]⟩
abbrev S80x12000 : Shape := ⟨2, ![80, 12000]⟩
abbrev S80 : Shape := ⟨1, ![80]⟩
abbrev S80x1 : Shape := ⟨2, ![80, 1]⟩

abbrev nBuf : Space → Nat
  | .hbm => 10
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S12000x128, .f32⟩
  | .hbm, ⟨2, _⟩ => ⟨S10000x12000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S12000x128, .bf16⟩
  | .hbm, ⟨8, _⟩ => ⟨S128x12000, .bf16⟩
  | .hbm, ⟨9, _⟩ => ⟨S10000x128, .f32⟩
  | .local _ .vmem, ⟨0, _⟩ => ⟨S80x128, .f32⟩
  | .local _ .vmem, ⟨1, _⟩ => ⟨S80x128, .f32⟩
  | .local _ .vmem, ⟨2, _⟩ => ⟨S12000x128, .bf16⟩
  | .local _ .vmem, ⟨3, _⟩ => ⟨S128x12000, .bf16⟩
  | .local _ .vmem, ⟨4, _⟩ => ⟨S80x12000, .i32⟩
  | .local _ .vmem, ⟨5, _⟩ => ⟨S80x12000, .i32⟩
  | .local _ .vmem, ⟨6, _⟩ => ⟨S128x128, .f32⟩
  | .local _ .vmem, ⟨7, _⟩ => ⟨S1x128, .f32⟩
  | .local _ .vmem, ⟨8, _⟩ => ⟨S80x128, .f32⟩
  | .local _ .vmem, ⟨9, _⟩ => ⟨S80x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x12000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S80x12000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S80x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  shapeCasts_S128_S1x128 : S128.ShapeCasts S1x128
  bitsLt_bf16_f32 : FTy.bits .bf16 < FTy.bits .f32
  transposes_S12000x128_S128x12000_1_0 : S12000x128.Transposes [1, 0] S128x12000
  inb_S80x128_S80x128_0_0 : ∀ a, (![0, 0] : Fin 2 → Nat) a + S80x128.size a ≤ S80x128.size a
  h_S80x128 : 0 < S80x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S80x128 : S1x128.Broadcasts S80x128
  inb_S128x12000_S128x12000_0_0 : ∀ a, (![0, 0] : Fin 2 → Nat) a + S128x12000.size a ≤ S128x12000.size a
  h_S128x12000 : 0 < S128x12000.numel
  shapeCasts_S128x12000_S128x12000 : S128x12000.ShapeCasts S128x12000
  inb_S80x12000_S80x12000_0_0 : ∀ a, (![0, 0] : Fin 2 → Nat) a + S80x12000.size a ≤ S80x12000.size a
  h_S80x12000 : 0 < S80x12000.numel
  reduces_S80x12000_S80 : S80x12000.Reduces [1] S80
  shapeCasts_S80_S80x1 : S80.ShapeCasts S80x1
  broadcasts_S80x1_S80x12000 : S80x1.Broadcasts S80x12000
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  broadcasts_S80x1_S80x128 : S80x1.Broadcasts S80x128
  dot_S80x128_S128x128_S80x128_1_0_0_1_n_n_wf : DotDims.WF S80x128 S128x128 S80x128 [1] [0] [0] [1] [] []
  dot_S80x128_S128x12000_S80x12000_1_0_0_1_n_n_wf : DotDims.WF S80x128 S128x12000 S80x12000 [1] [0] [0] [1] [] []
  dot_S80x12000_S12000x128_S80x128_1_0_0_1_n_n_wf : DotDims.WF S80x12000 S12000x128 S80x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x128.size a ≤ S10000x128.size a
  hwx0_0 : ∀ i : grid0.Coords, EltTy.bits .f32 = 32 ∨ (Rect.block (s := S10000x128) S80x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12000x128.size a ≤ S12000x128.size a
  hwx0_1 : ∀ i : grid0.Coords, EltTy.bits .bf16 = 32 ∨ (Rect.block (s := S12000x128) S12000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x12000.size a ≤ S128x12000.size a
  hwx0_2 : ∀ i : grid0.Coords, EltTy.bits .bf16 = 32 ∨ (Rect.block (s := S128x12000) S128x12000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x12000.size a ≤ S10000x12000.size a
  hwx0_3 : ∀ i : grid0.Coords, EltTy.bits .i32 = 32 ∨ (Rect.block (s := S10000x12000) S80x12000.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x128.size a ≤ S10000x128.size a
  hwx0_6 : ∀ i : grid0.Coords, EltTy.bits .f32 = 32 ∨ (Rect.block (s := S10000x128) S80x128.size (cc0_transform_6 i) (hinb0_6 i)).WholeWords (EltTy.packing .f32)

variable [Facts₀]

def dot_S80x128_S128x128_S80x128_1_0_0_1_n_n : DotDims S80x128 S128x128 S80x128 where
  lhsContracting := [1]
  rhsContracting := [0]
  lhsNonContracting := [0]
  rhsNonContracting := [1]
  lhsBatch := []
  rhsBatch := []
  wf := dot_S80x128_S128x128_S80x128_1_0_0_1_n_n_wf
def dot_S80x128_S128x12000_S80x12000_1_0_0_1_n_n : DotDims S80x128 S128x12000 S80x12000 where
  lhsContracting := [1]
  rhsContracting := [0]
  lhsNonContracting := [0]
  rhsNonContracting := [1]
  lhsBatch := []
  rhsBatch := []
  wf := dot_S80x128_S128x12000_S80x12000_1_0_0_1_n_n_wf
def dot_S80x12000_S12000x128_S80x128_1_0_0_1_n_n : DotDims S80x12000 S12000x128 S80x128 where
  lhsContracting := [1]
  rhsContracting := [0]
  lhsNonContracting := [0]
  rhsNonContracting := [1]
  lhsBatch := []
  rhsBatch := []
  wf := dot_S80x12000_S12000x128_S80x128_1_0_0_1_n_n_wf

abbrev win0_0 : Pipeline.Window sig grid0 :=
  Pipeline.Window.ofSpec (Memref.whole main_arg0) S80x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S12000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x12000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S80x12000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S80x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S12000x128 : Shape := ⟨2, ![12000, 128]⟩
abbrev S10000x12000 : Shape := ⟨2, ![10000, 12000]⟩
abbrev S128x128 : Shape := ⟨2, ![128, 128]⟩
abbrev S128 : Shape := ⟨1, ![128]⟩
abbrev S1x128 : Shape := ⟨2, ![1, 128]⟩
abbrev S128x12000 : Shape := ⟨2, ![128, 12000]⟩
abbrev S_ : Shape := ⟨0, ![]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S12000x128, .f32⟩
  | .hbm, ⟨2, _⟩ => ⟨S10000x12000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S128x12000, .f32⟩
  | .hbm, ⟨11, _⟩ => ⟨S10000x12000, .f32⟩
  | .hbm, ⟨12, _⟩ => ⟨S_, .f32⟩
  | .hbm, ⟨13, _⟩ => ⟨S10000x12000, .f32⟩
  | .hbm, ⟨14, _⟩ => ⟨S10000x12000, .f32⟩
  | .hbm, ⟨15, _⟩ => ⟨S_, .f32⟩
  | .hbm, ⟨16, _⟩ => ⟨S10000x12000, .f32⟩
  | .hbm, ⟨17, _⟩ => ⟨S10000x12000, .i1⟩
  | .hbm, ⟨18, _⟩ => ⟨S_, .f32⟩
  | .hbm, ⟨19, _⟩ => ⟨S10000x12000, .f32⟩
  | .hbm, ⟨20, _⟩ => ⟨S10000x12000, .f32⟩
  | .hbm, ⟨21, _⟩ => ⟨S10000x12000, .f32⟩
  | .hbm, ⟨22, _⟩ => ⟨S_, .i32⟩
  | .hbm, ⟨23, _⟩ => ⟨S10000x12000, .i32⟩
  | .hbm, ⟨24, _⟩ => ⟨S10000x12000, .i1⟩
  | .hbm, ⟨25, _⟩ => ⟨S_, .f32⟩
  | .hbm, ⟨26, _⟩ => ⟨S_, .f32⟩
  | .hbm, ⟨27, _⟩ => ⟨S10000x12000, .f32⟩
  | .hbm, ⟨28, _⟩ => ⟨S10000x12000, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x12000, .f32⟩
  | .hbm, ⟨36, _⟩ => ⟨S10000x12000, .f32⟩
  | .hbm, ⟨37, _⟩ => ⟨S10000x12000, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x12000, .f32⟩
  | .hbm, ⟨42, _⟩ => ⟨S10000x12000, .f32⟩
  | .hbm, ⟨43, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S12000x128_S128x12000_1_0 : S12000x128.Transposes [1, 0] S128x12000
  bcast_S_S10000x12000 : S_.BroadcastsInDim S10000x12000 (![] : Fin 0 → Fin S10000x12000.rank)
  reducesTo_S10000x12000_S10000_d1 : S10000x12000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x12000_0_1 : S10000x1.BroadcastsInDim S10000x12000 (![0, 1] : Fin 2 → Fin S10000x12000.rank)
  dot_S10000x128_S128x128_S10000x128_1_0_0_1_n_n_wf : DotDims.WF S10000x128 S128x128 S10000x128 [1] [0] [0] [1] [] []
  dot_S10000x128_S128x12000_S10000x12000_1_0_0_1_n_n_wf : DotDims.WF S10000x128 S128x12000 S10000x12000 [1] [0] [0] [1] [] []
  dot_S10000x12000_S12000x128_S10000x128_1_0_0_1_n_n_wf : DotDims.WF S10000x12000 S12000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x12000_S10000x12000_1_0_0_1_n_n : DotDims S10000x128 S128x12000 S10000x12000 where
  lhsContracting := [1]
  rhsContracting := [0]
  lhsNonContracting := [0]
  rhsNonContracting := [1]
  lhsBatch := []
  rhsBatch := []
  wf := dot_S10000x128_S128x12000_S10000x12000_1_0_0_1_n_n_wf
def dot_S10000x12000_S12000x128_S10000x128_1_0_0_1_n_n : DotDims S10000x12000 S12000x128 S10000x128 where
  lhsContracting := [1]
  rhsContracting := [0]
  lhsNonContracting := [0]
  rhsNonContracting := [1]
  lhsBatch := []
  rhsBatch := []
  wf := dot_S10000x12000_S12000x128_S10000x128_1_0_0_1_n_n_wf

class Facts : Prop extends Facts₀ where

variable [Facts]
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.Spec.lean ====
/-
  Attention of one user row over all items, as a function of coordinates on the extended reals.

  For a user row u (128 features), weights w, bias b and the items' features x:
    query  q k = (Σ_d u d · w k d) + b k
    scaled z j = (Σ_k q k · x j k) · scale
    leaky      = z where z > 0, 2·z elsewhere
    score  s j = leaky where the adjacency word is positive, the sentinel −9·10¹⁵ elsewhere
    weight e j = exp (s j − max_j s j)
    out    c   = (Σ_j e j · x j c) / (Σ_j e j).
  The softmax-first arrangement divides every weight by the total before the weighted sum:
    out' c = Σ_j (e j / Σ_j' e j') · x j c.
  For real inputs every score is real, so the weights are reals that are not negative with a positive total, and
  the two arrangements are the same real (`softmaxFirst_eq_rowOut`).
-/
import proofs.«112014_j67327907332631_2_alg».proof.Proof.LibRealSums
import Idealize.ShloMosaic.Lib.ValueIdx

noncomputable section

open scoped BigOperators

namespace Cert.Gat

open Idealize.ShloMosaic Cert.Math

/-! ### Words that denote reals -/

/-- A word whose exponent field is not all ones denotes a real. -/
theorem isReal_ieee (e m : ℕ) {w : ℕ} (b : BitVec w) (h : (b.extractLsb' m e).toNat ≠ 2 ^ e - 1) :
    IsReal (Ideal.ieee e m b) := by
  unfold Ideal.ieee
  dsimp only
  rw [if_neg h]
  split
  · exact ⟨_, rfl⟩
  · exact ⟨_, rfl⟩

/-- The scale 1/√128 rounded to f32 is a real. -/
theorem isReal_scale : IsReal (Ideal.ofBits .f32 0x3DB504F3#32) :=
  show IsReal (Ideal.ieee 8 23 (0x3DB504F3#32 : BitVec 32)) from isReal_ieee 8 23 (0x3DB504F3#32 : BitVec 32) (by decide)
/-- The word of 2 is a real. -/
theorem isReal_two : IsReal (Ideal.ofBits .f32 0x40000000#32) :=
  show IsReal (Ideal.ieee 8 23 (0x40000000#32 : BitVec 32)) from isReal_ieee 8 23 (0x40000000#32 : BitVec 32) (by decide)
/-- The sentinel −9·10¹⁵ rounded to f32 is a real. -/
theorem isReal_sentinel : IsReal (Ideal.ofBits .f32 0xD9FFCB9E#32) :=
  show IsReal (Ideal.ieee 8 23 (0xD9FFCB9E#32 : BitVec 32)) from isReal_ieee 8 23 (0xD9FFCB9E#32 : BitVec 32) (by decide)

/-- A select returns one of its two branches, so it has every property both have. -/
theorem select_of {α : Type} (P : α → Prop) (c : BitVec 1) (a b : α) (ha : P a) (hb : P b) : P (Scalar.select c a b) := by
  unfold Scalar.select
  split <;> assumption

/-! ### One row -/

/-- The query: the row against the weights, plus the bias. -/
def query (u : Fin 128 → EReal) (w : Fin 128 → Fin 128 → EReal) (b : Fin 128 → EReal) (k : Fin 128) : EReal :=
  (∑ d : Fin 128, u d * w k d) + b k

/-- The query against item j, scaled. -/
def scaled (q : Fin 128 → EReal) (xs : Fin 12000 → Fin 128 → EReal) (j : Fin 12000) : EReal :=
  (∑ k : Fin 128, q k * xs j k) * Ideal.ofBits .f32 0x3DB504F3#32

/-- z where z > 0, 2·z elsewhere. -/
def leaky (z : Ideal .f32) : Ideal .f32 :=
  Scalar.select (FloatOps.cmpf (F := Ideal) .ogt z (Ideal.ofBits .f32 0x00000000#32)) z (Ideal.ofBits .f32 0x40000000#32 * z)

/-- z where the adjacency word is positive, the sentinel elsewhere. -/
def masked (a : BitVec 32) (z : Ideal .f32) : Ideal .f32 :=
  Scalar.select (IntOp.cmpi .sgt a 0#32) z (Ideal.ofBits .f32 0xD9FFCB9E#32)

/-- The scores of one row. -/
def score (u : Fin 128 → EReal) (w : Fin 128 → Fin 128 → EReal) (b : Fin 128 → EReal)
    (xs : Fin 12000 → Fin 128 → EReal) (adj : Fin 12000 → BitVec 32) (j : Fin 12000) : EReal :=
  masked (adj j) (leaky (scaled (query u w b) xs j))

/-- The weight of item j: the exponential of its score's distance below the row's maximum. -/
def weight (s : Fin 12000 → EReal) (j : Fin 12000) : EReal :=
  Ideal.exp (s j - (Finset.univ : Finset (Fin 12000)).fold max ⊥ s)

/-- Column c of the row's result: the weighted sum of the items' feature c over the total weight. -/
def rowOut (s : Fin 12000 → EReal) (xa : Fin 12000 → Fin 128 → EReal) (c : Fin 128) : EReal :=
  Ideal.div (∑ j, weight s j * xa j c) (∑ j, weight s j)

/-- The softmax-first arrangement: every weight over the total, then the weighted sum. -/
def softmaxFirst (s : Fin 12000 → EReal) (xa : Fin 12000 → Fin 128 → EReal) (c : Fin 128) : EReal :=
  ∑ j, Ideal.div (weight s j) (∑ j', weight s j') * xa j c

/-! ### Real inputs give real scores -/

theorem isReal_query (u : Fin 128 → EReal) (w : Fin 128 → Fin 128 → EReal) (b : Fin 128 → EReal)
    (hu : ∀ d, IsReal (u d)) (hw : ∀ k d, IsReal (w k d)) (hb : ∀ k, IsReal (b k)) (k : Fin 128) :
    IsReal (query u w b k) :=
  IsReal.add (IsReal.sum _ _ fun d _ => IsReal.mul (hu d) (hw k d)) (hb k)

theorem isReal_scaled (q : Fin 128 → EReal) (xs : Fin 12000 → Fin 128 → EReal)
    (hq : ∀ k, IsReal (q k)) (hx : ∀ j k, IsReal (xs j k)) (j : Fin 12000) : IsReal (scaled q xs j) :=
  IsReal.mul (IsReal.sum _ _ fun k _ => IsReal.mul (hq k) (hx j k)) isReal_scale

theorem isReal_leaky (z : EReal) (hz : IsReal z) : IsReal (leaky z) :=
  select_of IsReal _ _ _ hz (IsReal.mul isReal_two hz)

theorem isReal_masked (a : BitVec 32) (z : EReal) (hz : IsReal z) : IsReal (masked a z) :=
  select_of IsReal _ _ _ hz isReal_sentinel

theorem isReal_score (u : Fin 128 → EReal) (w : Fin 128 → Fin 128 → EReal) (b : Fin 128 → EReal)
    (xs : Fin 12000 → Fin 128 → EReal) (adj : Fin 12000 → BitVec 32)
    (hu : ∀ d, IsReal (u d)) (hw : ∀ k d, IsReal (w k d)) (hb : ∀ k, IsReal (b k)) (hx : ∀ j k, IsReal (xs j k))
    (j : Fin 12000) : IsReal (score u w b xs adj j) :=
  isReal_masked _ _ (isReal_leaky _ (isReal_scaled _ _ (isReal_query u w b hu hw hb) hx j))

/-! ### The two arrangements agree on real scores and real features -/

/-- Normalising the weights before the weighted sum, or the weighted sum afterwards: the same real. -/
theorem softmaxFirst_eq_rowOut (s : Fin 12000 → EReal) (xa : Fin 12000 → Fin 128 → EReal)
    (hs : ∀ j, IsReal (s j)) (hx : ∀ j c, IsReal (xa j c)) (c : Fin 128) :
    softmaxFirst s xa c = rowOut s xa c :=
  softmax_div_comm s (fun j => xa j c) (fun j => (hs j).ne_top) ⟨0, by omega⟩ (hs _).ne_bot (fun j => hx j c)

end Cert.Gat

end
-- ==== Proof.KernelRow.lean ====
/-
  One block of the kernel, read at an entry.

  At a grid point the body holds 80 user rows P0, the transposed weights P1, the bias row P2, the items' features
  transposed P3 and plain P5, and the 80 rows of adjacency words P4. Entry (p, c) of what it stores is the attention
  of row p over all items (`Cert.Gat.rowOut`): the query is row p of P0 against the columns of P1 plus the bias, the
  score of item j the query against column j of P3 — scaled, leaky, masked by the adjacency word (p, j) —, the weights
  the exponentials of the scores' distances below the row maximum, and the result the weighted sum of column c of P5
  over the total weight. The narrowing to bf16 before each product is the identity on the extended reals.
-/
import proofs.«112014_j67327907332631_2_alg».proof.Proof.Gen.KernelIdeal.Value
import proofs.«112014_j67327907332631_2_alg».proof.Proof.LibRowSoftmax
import proofs.«112014_j67327907332631_2_alg».proof.Proof.Spec
import Idealize.ShloMosaic.Lib.ValueIdx
import Idealize.ShloMosaic.Lib.Pipeline.Value
import Idealize.ShloMosaic.PureOps.Ideal.Laws

noncomputable section

open scoped BigOperators

namespace Cert.Gat.KernelRow

open Cert.KernelIdeal Cert.KernelIdeal.Gen Idealize.ShloMosaic Idealize.ShloMosaic.ValueIdx Cert.RowSoftmax Cert.Math

/-! ### The kept coordinates of the three products -/

theorem dotQ_l0 (i : S80x128.Idx) (q : dot_S80x128_S128x128_S80x128_1_0_0_1_n_n.contr.Idx) :
    (dot_S80x128_S128x128_S80x128_1_0_0_1_n_n.lhsIdx i q 0).val = (i 0).val := by
  unfold DotDims.lhsIdx
  rw [dif_neg (show ¬(0 : Fin S80x128.rank) ∈ dot_S80x128_S128x128_S80x128_1_0_0_1_n_n.lhsBatch by decide), dif_pos (show (0 : Fin S80x128.rank) ∈ dot_S80x128_S128x128_S80x128_1_0_0_1_n_n.lhsNonContracting by decide)]
  rfl

theorem dotQ_r1 (i : S80x128.Idx) (q : dot_S80x128_S128x128_S80x128_1_0_0_1_n_n.contr.Idx) :
    (dot_S80x128_S128x128_S80x128_1_0_0_1_n_n.rhsIdx i q 1).val = (i 1).val := by
  unfold DotDims.rhsIdx
  rw [dif_neg (show ¬(1 : Fin S128x128.rank) ∈ dot_S80x128_S128x128_S80x128_1_0_0_1_n_n.rhsBatch by decide), dif_pos (show (1 : Fin S128x128.rank) ∈ dot_S80x128_S128x128_S80x128_1_0_0_1_n_n.rhsNonContracting by decide)]
  rfl

theorem dotS_l0 (i : S80x12000.Idx) (q : dot_S80x128_S128x12000_S80x12000_1_0_0_1_n_n.contr.Idx) :
    (dot_S80x128_S128x12000_S80x12000_1_0_0_1_n_n.lhsIdx i q 0).val = (i 0).val := by
  unfold DotDims.lhsIdx
  rw [dif_neg (show ¬(0 : Fin S80x128.rank) ∈ dot_S80x128_S128x12000_S80x12000_1_0_0_1_n_n.lhsBatch by decide), dif_pos (show (0 : Fin S80x128.rank) ∈ dot_S80x128_S128x12000_S80x12000_1_0_0_1_n_n.lhsNonContracting by decide)]
  rfl

theorem dotS_r1 (i : S80x12000.Idx) (q : dot_S80x128_S128x12000_S80x12000_1_0_0_1_n_n.contr.Idx) :
    (dot_S80x128_S128x12000_S80x12000_1_0_0_1_n_n.rhsIdx i q 1).val = (i 1).val := by
  unfold DotDims.rhsIdx
  rw [dif_neg (show ¬(1 : Fin S128x12000.rank) ∈ dot_S80x128_S128x12000_S80x12000_1_0_0_1_n_n.rhsBatch by decide), dif_pos (show (1 : Fin S128x12000.rank) ∈ dot_S80x128_S128x12000_S80x12000_1_0_0_1_n_n.rhsNonContracting by decide)]
  rfl

theorem dotA_l0 (i : S80x128.Idx) (q : dot_S80x12000_S12000x128_S80x128_1_0_0_1_n_n.contr.Idx) :
    (dot_S80x12000_S12000x128_S80x128_1_0_0_1_n_n.lhsIdx i q 0).val = (i 0).val := by
  unfold DotDims.lhsIdx
  rw [dif_neg (show ¬(0 : Fin S80x12000.rank) ∈ dot_S80x12000_S12000x128_S80x128_1_0_0_1_n_n.lhsBatch by decide), dif_pos (show (0 : Fin S80x12000.rank) ∈ dot_S80x12000_S12000x128_S80x128_1_0_0_1_n_n.lhsNonContracting by decide)]
  rfl

theorem dotA_r1 (i : S80x128.Idx) (q : dot_S80x12000_S12000x128_S80x128_1_0_0_1_n_n.contr.Idx) :
    (dot_S80x12000_S12000x128_S80x128_1_0_0_1_n_n.rhsIdx i q 1).val = (i 1).val := by
  unfold DotDims.rhsIdx
  rw [dif_neg (show ¬(1 : Fin S12000x128.rank) ∈ dot_S80x12000_S12000x128_S80x128_1_0_0_1_n_n.rhsBatch by decide), dif_pos (show (1 : Fin S12000x128.rank) ∈ dot_S80x12000_S12000x128_S80x128_1_0_0_1_n_n.rhsNonContracting by decide)]
  rfl

/-- The bias row repeated along the 80 rows holds, at (p, k), the row's entry (0, k). -/
theorem bias_row_apply {α : Type} (v : S1x128.Idx → α) (h : S1x128.Broadcasts S80x128) (p : Fin 80) (k : Fin 128) :
    broadcastTo S80x128 v h (ix2 p k) = v (ix2 (0 : Fin 1) k) := by
  refine broadcastTo_apply v h (ix2 p k) (ix2 (0 : Fin 1) k) fun ax => ?_
  match ax with
  | ⟨0, _⟩ => rfl
  | ⟨1, _⟩ => rfl

variable (P0 : Vec Ideal S80x128 .f32) (P1 : Vec Ideal S128x128 .f32) (P2 : Vec Ideal S1x128 .f32)
  (P3 : Vec Ideal S128x12000 .bf16) (P4 : Vec Ideal S80x12000 .i32) (P5 : Vec Ideal S12000x128 .bf16)

/-! ### The queries of the block -/

/-- The 80 queries: the rows against the transposed weights, plus the bias row. -/
def blockQuery : FVec Ideal S80x128 .f32 :=
  addf (matmul dot_S80x128_S128x128_S80x128_1_0_0_1_n_n none (truncf .bf16 P0 bitsLt_bf16_f32)
      (truncf .bf16 (shapeCast S128x128 P1 shapeCasts_S128x128_S128x128) bitsLt_bf16_f32) (constant S80x128 .f32 0x00000000#32))
    (broadcastTo S80x128 (shapeCast S1x128 P2 shapeCasts_S1x128_S1x128) broadcasts_S1x128_S80x128)

theorem blockQuery_apply (p : Fin 80) (k : Fin 128) :
    blockQuery P0 P1 P2 (ix2 p k)
      = query (fun d => P0 (ix2 p d)) (fun k d => P1 (ix2 d k)) (fun k => P2 (ix2 (0 : Fin 1) k)) k := by
  unfold blockQuery query
  rw [shapeCast_self P2, shapeCast_self P1, addf_apply, bias_row_apply]
  refine congrArg₂ (· + ·) ?_ rfl
  exact matmul_rows_cols_apply _ rfl rfl rfl rfl dotQ_l0 dotQ_r1 none _ _ p k

/-! ### The scores of the block -/

/-- The queries against every item, scaled. -/
def blockScaled : FVec Ideal S80x12000 .f32 :=
  mulf (matmul dot_S80x128_S128x12000_S80x12000_1_0_0_1_n_n none (truncf .bf16 (blockQuery P0 P1 P2) bitsLt_bf16_f32)
      (shapeCast S128x12000 P3 shapeCasts_S128x12000_S128x12000 : FVec Ideal S128x12000 .bf16) (constant S80x12000 .f32 0x00000000#32))
    (broadcast S80x12000 (Scalar.ofBits .f32 0x3DB504F3#32))

theorem blockScaled_apply (p : Fin 80) (j : Fin 12000) :
    blockScaled P0 P1 P2 P3 (ix2 p j)
      = scaled (query (fun d => P0 (ix2 p d)) (fun k d => P1 (ix2 d k)) (fun k => P2 (ix2 (0 : Fin 1) k)))
          (fun j k => P3 (ix2 k j)) j := by
  unfold blockScaled scaled
  rw [shapeCast_self P3, mulf_apply]
  refine congrArg₂ (· * ·) ?_ rfl
  refine (matmul_rows_cols_apply (φ₂ := .bf16) _ rfl rfl rfl rfl dotS_l0 dotS_r1 none _ _ p j).trans ?_
  refine Finset.sum_congr rfl fun k _ => ?_
  exact congrArg₂ (· * ·) (blockQuery_apply P0 P1 P2 p k) rfl

/-- Leaky, then masked by the adjacency words. -/
def blockScores : FVec Ideal S80x12000 .f32 :=
  select (cmpi .sgt P4 (broadcast S80x12000 (0#32 : BitVec 32)))
    (select (cmpf .ogt (blockScaled P0 P1 P2 P3) (broadcast S80x12000 (Scalar.ofBits .f32 0x00000000#32)))
      (blockScaled P0 P1 P2 P3)
      (mulf (broadcast S80x12000 (Scalar.ofBits .f32 0x40000000#32)) (blockScaled P0 P1 P2 P3)))
    (broadcast S80x12000 (Scalar.ofBits .f32 0xD9FFCB9E#32))

theorem blockScores_apply (p : Fin 80) (j : Fin 12000) :
    blockScores P0 P1 P2 P3 P4 (ix2 p j)
      = score (fun d => P0 (ix2 p d)) (fun k d => P1 (ix2 d k)) (fun k => P2 (ix2 (0 : Fin 1) k))
          (fun j k => P3 (ix2 k j)) (fun j => P4 (ix2 p j)) j := by
  show masked (P4 (ix2 p j)) (leaky (blockScaled P0 P1 P2 P3 (ix2 p j))) = _
  rw [blockScaled_apply]
  rfl

/-! ### The weights, and the stored entry -/

/-- The body's exponentials are the rows of the scores minus their maxima, exponentiated. -/
theorem pay2_eq : k0_pay2 (F := Ideal) P0 P1 P2 P3 P4
    = expRows (blockScores P0 P1 P2 P3 P4) reduces_S80x12000_S80 (.inl rfl) rfl shapeCasts_S80_S80x1 broadcasts_S80x1_S80x12000 := by
  unfold k0_pay2 expRows blockScores blockScaled blockQuery
  rfl

theorem pay2_apply (p : Fin 80) (j : Fin 12000) :
    k0_pay2 (F := Ideal) P0 P1 P2 P3 P4 (ix2 p j)
      = weight (score (fun d => P0 (ix2 p d)) (fun k d => P1 (ix2 d k)) (fun k => P2 (ix2 (0 : Fin 1) k))
          (fun j k => P3 (ix2 k j)) (fun j => P4 (ix2 p j))) j := by
  rw [pay2_eq]
  refine (expRows_apply _ _ _ _ _ _ p j).trans ?_
  rw [ofBits_neg_inf]
  unfold weight
  rw [blockScores_apply]
  exact congrArg (fun f => Ideal.exp (_ - (Finset.univ : Finset (Fin 12000)).fold max ⊥ f))
    (funext fun j' => blockScores_apply P0 P1 P2 P3 P4 p j')

/-- Entry (p, c) of what the body stores: the attention of row p, column c. -/
theorem stored_apply (p : Fin 80) (c : Fin 128) :
    Cert.KernelIdeal.Value.E6 (F := Ideal) P0 P1 P2 P3 P4 P5 (ix2 p c)
      = rowOut (score (fun d => P0 (ix2 p d)) (fun k d => P1 (ix2 d k)) (fun k => P2 (ix2 (0 : Fin 1) k))
          (fun j k => P3 (ix2 k j)) (fun j => P4 (ix2 p j))) (fun j c => P5 (ix2 j c)) c := by
  have i0 : Cert.KernelIdeal.Value.ix6_0 (ix2 p c) = ix2 p c := by
    funext a; apply Fin.ext
    match a with | ⟨0, _⟩ => rfl | ⟨1, _⟩ => rfl
  have i1 : Cert.KernelIdeal.Value.ix6_1 (ix2 p c) = ix1 p := by
    funext a; apply Fin.ext
    match a with | ⟨0, _⟩ => rfl
  show Ideal.div ((k0_pay4 P0 P1 P2 P3 P4 P5) (Cert.KernelIdeal.Value.ix6_0 (ix2 p c)))
      ((multiReduction .add [1] S80 (k0_pay2 P0 P1 P2 P3 P4) 0x00000000#32 reduces_S80x12000_S80 (.inl rfl) rfl) (Cert.KernelIdeal.Value.ix6_1 (ix2 p c))) = _
  rw [i0, i1]
  unfold rowOut
  have hnum : (k0_pay4 (F := Ideal) P0 P1 P2 P3 P4 P5) (ix2 p c)
      = ∑ j : Fin 12000, k0_pay2 (F := Ideal) P0 P1 P2 P3 P4 (ix2 p j) * P5 (ix2 j c) := by
    unfold k0_pay4
    rw [shapeCast_self P5]
    exact matmul_rows_cols_apply (φ₂ := .bf16) _ rfl rfl rfl rfl dotA_l0 dotA_r1 none _ _ p c
  have hden : (multiReduction .add [1] S80 (k0_pay2 (F := Ideal) P0 P1 P2 P3 P4) 0x00000000#32 reduces_S80x12000_S80 (.inl rfl) rfl) (ix1 p)
      = ∑ j : Fin 12000, k0_pay2 (F := Ideal) P0 P1 P2 P3 P4 (ix2 p j) :=
    (Ideal.multiReduction_add_single _ _ reduces_S80x12000_S80 (.inl rfl) rfl (ix1 p)).trans
      (Finset.sum_congr rfl fun k _ => congrArg _ (row_lift reduces_S80x12000_S80 p k))
  rw [hnum, hden]
  refine congrArg₂ Ideal.div (Finset.sum_congr rfl fun j _ => ?_) (Finset.sum_congr rfl fun j _ => ?_)
  · rw [pay2_apply]
  · rw [pay2_apply]

end Cert.Gat.KernelRow

end
-- ==== Proof.Whole.lean ====
/-
  The whole result array as one function of the five argument arrays.

  Entry (p, c) of the result is the attention of user row p at feature c (`Cert.Gat.rowOut`): the row's scores are
  built from row p of the user features and of the adjacency words, the weights, the bias and all items' features,
  and the weighted sum runs over column c of the items' features.
-/
import proofs.«112014_j67327907332631_2_alg».proof.Proof.Spec

noncomputable section

namespace Cert.Gat

open Idealize.ShloMosaic Idealize.ShloMosaic.ValueIdx

/-- The scores of user row p from the argument arrays. -/
def rowScores (a0 : (⟨2, ![10000, 128]⟩ : Shape).Idx → EReal) (a1 : (⟨2, ![12000, 128]⟩ : Shape).Idx → EReal)
    (a2 : (⟨2, ![10000, 12000]⟩ : Shape).Idx → BitVec 32) (a3 : (⟨2, ![128, 128]⟩ : Shape).Idx → EReal)
    (a4 : (⟨1, ![128]⟩ : Shape).Idx → EReal) (p : Fin 10000) : Fin 12000 → EReal :=
  score (fun d => a0 (ix2 p d)) (fun k d => a3 (ix2 k d)) (fun k => a4 (ix1 k)) (fun j k => a1 (ix2 j k))
    (fun j => a2 (ix2 p j))

/-- Entry (p, c) of the result. -/
def attn (a0 : (⟨2, ![10000, 128]⟩ : Shape).Idx → EReal) (a1 : (⟨2, ![12000, 128]⟩ : Shape).Idx → EReal)
    (a2 : (⟨2, ![10000, 12000]⟩ : Shape).Idx → BitVec 32) (a3 : (⟨2, ![128, 128]⟩ : Shape).Idx → EReal)
    (a4 : (⟨1, ![128]⟩ : Shape).Idx → EReal) (p : Fin 10000) (c : Fin 128) : EReal :=
  rowOut (rowScores a0 a1 a2 a3 a4 p) (fun j c => a1 (ix2 j c)) c

/-- The result array. -/
def attnArray (a0 : (⟨2, ![10000, 128]⟩ : Shape).Idx → EReal) (a1 : (⟨2, ![12000, 128]⟩ : Shape).Idx → EReal)
    (a2 : (⟨2, ![10000, 12000]⟩ : Shape).Idx → BitVec 32) (a3 : (⟨2, ![128, 128]⟩ : Shape).Idx → EReal)
    (a4 : (⟨1, ![128]⟩ : Shape).Idx → EReal) : (⟨2, ![10000, 128]⟩ : Shape).Idx → EReal :=
  fun i => attn a0 a1 a2 a3 a4 (i 0) (i 1)

theorem attnArray_apply (a0 : (⟨2, ![10000, 128]⟩ : Shape).Idx → EReal) (a1 : (⟨2, ![12000, 128]⟩ : Shape).Idx → EReal)
    (a2 : (⟨2, ![10000, 12000]⟩ : Shape).Idx → BitVec 32) (a3 : (⟨2, ![128, 128]⟩ : Shape).Idx → EReal)
    (a4 : (⟨1, ![128]⟩ : Shape).Idx → EReal) (p : Fin 10000) (c : Fin 128) :
    attnArray a0 a1 a2 a3 a4 (ix2 p c) = attn a0 a1 a2 a3 a4 p c := rfl

end Cert.Gat

end
-- ==== Proof.KernelArray.lean ====
/-
  From the blocks to the whole array.

  Grid point t works on user rows 80·t … 80·t + 79: its blocks of the user features and of the adjacency words are
  those rows, while the weights, the bias and the items' features are the same whole arrays at every point — the
  transposed weights, the bias as a row, the items' features narrowed and their transpose, as the host operations
  before the call leave them. So what point t writes back is block t of the attention array, the 125 blocks cover
  the 10000 rows, and the result array after the run is the attention array of the five arguments.
-/
import proofs.«112014_j67327907332631_2_alg».proof.Proof.KernelRow
import proofs.«112014_j67327907332631_2_alg».proof.Proof.Whole
import Idealize.ShloMosaic.Lib.StableHlo.Run

noncomputable section

namespace Cert.Gat.KernelArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 125 grid points: the user rows and the adjacency rows move with the
    output block; every other window stays at block (0, 0). -/
theorem idx_facts : ∀ t : Fin cfg0.N,
    win0_0.index t (0 : Fin 2) = win0_6.index t (0 : Fin 2) ∧ win0_0.index t (1 : Fin 2) = 0
    ∧ win0_3.index t (0 : Fin 2) = win0_6.index t (0 : Fin 2) ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 124 :=
  (by decide +kernel : ∀ t : Fin grid0.N, _)

/-- Every block of 80 rows is some point's. -/
theorem idx_onto : ∀ q0 : Fin 125, ∃ t : Fin cfg0.N, win0_6.index t = ![q0.val, 0] :=
  (by decide +kernel : ∀ q0 : Fin 125, ∃ t : Fin grid0.N, win0_6.index t = ![q0.val, 0])

/-! ### The arrays the host operations leave before the call -/

theorem entry_wT (c : Dev nD) : (V m c main_v0 : S128x128.Idx → EReal)
    = transpose S128x128 [1, 0] (m ((c : Thread nD τ).loc main_arg3)) transposes_S128x128_S128x128_1_0 := by
  dsimp only [Gen.V, Gen.hostOps0]; after_results

theorem entry_bias (c : Dev nD) : (V m c main_v1 : S1x128.Idx → EReal)
    = shapeCast S1x128 (m ((c : Thread nD τ).loc main_arg4)) shapeCasts_S128_S1x128 := by
  dsimp only [Gen.V, Gen.hostOps0]; after_results; rfl

theorem entry_items (c : Dev nD) : (V m c main_v2 : S12000x128.Idx → EReal)
    = m ((c : Thread nD τ).loc main_arg1) := by
  dsimp only [Gen.V, Gen.hostOps0]; after_results; rfl

theorem entry_itemsT (c : Dev nD) : (V m c main_v3 : S128x12000.Idx → EReal)
    = transpose S128x12000 [1, 0] (m ((c : Thread nD τ).loc main_arg1) : S12000x128.Idx → EReal) transposes_S12000x128_S128x12000_1_0 := by
  dsimp only [Gen.V, Gen.hostOps0]; after_results; rfl

/-! ### The blocks at a grid point, read at an entry -/

theorem users_apply (c : Dev nD) (t : Fin cfg0.N) (p : Fin 80) (d : Fin 128) (r : Fin 10000)
    (hr : r.val = win0_6.index t (0 : Fin 2) * 80 + p.val) :
    iblk m c 0 t (ix2 p d) = m ((c : Thread nD τ).loc main_arg0) (ix2 r d) := by
  obtain ⟨e0, e1, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 80 + 1 * p.val = r.val; omega
  | ⟨1, _⟩ => show win0_0.index t (1 : Fin 2) * 128 + 1 * d.val = d.val; omega

theorem adj_apply (c : Dev nD) (t : Fin cfg0.N) (p : Fin 80) (j : Fin 12000) (r : Fin 10000)
    (hr : r.val = win0_6.index t (0 : Fin 2) * 80 + p.val) :
    iblk m c 3 t (ix2 p j) = m ((c : Thread nD τ).loc main_arg2) (ix2 r j) := by
  obtain ⟨-, -, e0, e1, -⟩ := idx_facts t
  show V m c main_arg2 (((cfg0.win 3).blk t).view.emb (ix2 p j)) = _
  rw [V_main_arg2]
  refine congrArg _ (funext fun a => Fin.ext ?_)
  match a with
  | ⟨0, _⟩ => show win0_3.index t (0 : Fin 2) * 80 + 1 * p.val = r.val; omega
  | ⟨1, _⟩ => show win0_3.index t (1 : Fin 2) * 12000 + 1 * j.val = j.val; omega

theorem items_apply (c : Dev nD) (t : Fin cfg0.N) (j : Fin 12000) (k : Fin 128) :
    iblk m c 1 t (ix2 j k) = m ((c : Thread nD τ).loc main_arg1) (ix2 j k) := by
  obtain ⟨-, -, -, -, e0, e1, -⟩ := idx_facts t
  have e : ((cfg0.win 1).blk t).view.emb (ix2 j k) = ix2 j k := by
    funext a; apply Fin.ext
    match a with
    | ⟨0, _⟩ => show win0_1.index t (0 : Fin 2) * 12000 + 1 * j.val = j.val; omega
    | ⟨1, _⟩ => show win0_1.index t (1 : Fin 2) * 128 + 1 * k.val = k.val; omega
  show V m c main_v2 (((cfg0.win 1).blk t).view.emb (ix2 j k)) = _
  rw [e]
  exact congrFun (entry_items m c) (ix2 j k)

theorem itemsT_apply (c : Dev nD) (t : Fin cfg0.N) (k : Fin 128) (j : Fin 12000) :
    iblk m c 2 t (ix2 k j) = m ((c : Thread nD τ).loc main_arg1) (ix2 j k) := by
  obtain ⟨-, -, -, -, -, -, e0, e1, -⟩ := idx_facts t
  have e : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 12000 + 1 * j.val = j.val; omega
  show V m c main_v3 (((cfg0.win 2).blk t).view.emb (ix2 k j)) = _
  rw [e]
  refine (congrFun (entry_itemsT m c) (ix2 k j)).trans ?_
  exact transpose_apply [1, 0] _ _ (ix2 k j) (ix2 j k) (fun b => by match b with | ⟨0, _⟩ => rfl | ⟨1, _⟩ => rfl)

theorem wT_apply (c : Dev nD) (t : Fin cfg0.N) (d k : Fin 128) :
    iblk m c 4 t (ix2 d k) = m ((c : Thread nD τ).loc main_arg3) (ix2 k d) := by
  obtain ⟨-, -, -, -, -, -, -, -, e0, e1, -⟩ := idx_facts t
  have e : ((cfg0.win 4).blk t).view.emb (ix2 d k) = ix2 d k := by
    funext a; apply Fin.ext
    match a with
    | ⟨0, _⟩ => show win0_4.index t (0 : Fin 2) * 128 + 1 * d.val = d.val; omega
    | ⟨1, _⟩ => show win0_4.index t (1 : Fin 2) * 128 + 1 * k.val = k.val; omega
  show V m c main_v0 (((cfg0.win 4).blk t).view.emb (ix2 d k)) = _
  rw [e]
  refine (congrFun (entry_wT m c) (ix2 d k)).trans ?_
  exact transpose_apply [1, 0] _ _ (ix2 d k) (ix2 k d) (fun b => by match b with | ⟨0, _⟩ => rfl | ⟨1, _⟩ => rfl)

theorem bias_apply (c : Dev nD) (t : Fin cfg0.N) (k : Fin 128) :
    iblk m c 5 t (ix2 (0 : Fin 1) k) = m ((c : Thread nD τ).loc main_arg4) (ix1 k) := by
  obtain ⟨-, -, -, -, -, -, -, -, -, -, e0, e1, -⟩ := idx_facts t
  have e : ((cfg0.win 5).blk t).view.emb (ix2 (0 : Fin 1) k) = ix2 (0 : Fin 1) k := by
    funext a; apply Fin.ext
    match a with
    | ⟨0, _⟩ => show win0_5.index t (0 : Fin 2) * 1 + 1 * 0 = 0; omega
    | ⟨1, _⟩ => show win0_5.index t (1 : Fin 2) * 128 + 1 * k.val = k.val; omega
  show V m c main_v1 (((cfg0.win 5).blk t).view.emb (ix2 (0 : Fin 1) k)) = _
  rw [e]
  refine (congrFun (entry_bias m c) (ix2 (0 : Fin 1) k)).trans ?_
  exact shapeCast_apply _ _ (ix2 (0 : Fin 1) k) (ix1 k) (by
    rw [Shape.rowMajor_val_one, Shape.rowMajor_val_two]
    show k.val = 0 * 128 + k.val
    omega)

/-! ### What a point writes back, the cover, and the final array -/

/-- What point t writes back is block t of the attention array. -/
theorem flushed_eq (c : Dev nD) (t : Fin cfg0.N) :
    (dats m 0 c).flushed 6 t = ((cfg0.win 6).blk t).view.read (Elt Ideal)
      (attnArray (m ((c : Thread nD τ).loc main_arg0)) (m ((c : Thread nD τ).loc main_arg1))
        (m ((c : Thread nD τ).loc main_arg2)) (m ((c : Thread nD τ).loc main_arg3)) (m ((c : Thread nD τ).loc main_arg4))) := by
  rw [Cert.KernelIdeal.Value.flushed6]
  unfold out0_6
  simp only [View.ld_unit_zero (S := S80x128) zero_offsets, View.ld_unit_zero (S := S128x128) zero_offsets,
    View.ld_unit_zero (S := S1x128) zero_offsets, View.ld_unit_zero (S := S128x12000) zero_offsets,
    View.ld_unit_zero (S := S80x12000) zero_offsets, View.ld_unit_zero (S := S12000x128) zero_offsets]
  funext y
  obtain ⟨p, q, rfl⟩ : ∃ (p : Fin 80) (q : Fin 128), y = ix2 p q := ⟨y 0, y 1, eq_ix2 y⟩
  obtain ⟨-, -, -, -, -, -, -, -, -, -, -, -, e61, e60⟩ := idx_facts t
  have hrlt : win0_6.index t (0 : Fin 2) * 80 + p.val < 10000 := by have := p.isLt; omega
  have hemb : ((cfg0.win 6).blk t).view.emb (ix2 p q) = ix2 (⟨win0_6.index t (0 : Fin 2) * 80 + p.val, hrlt⟩ : Fin 10000) q := by
    funext a; apply Fin.ext
    match a with
    | ⟨0, _⟩ => show win0_6.index t (0 : Fin 2) * 80 + 1 * p.val = win0_6.index t (0 : Fin 2) * 80 + p.val; omega
    | ⟨1, _⟩ => show win0_6.index t (1 : Fin 2) * 128 + 1 * q.val = q.val; omega
  refine (Cert.KernelIdeal.Value.canon6_eq _ _ _ _ _ _ (ix2 p q)).trans ?_
  refine (KernelRow.stored_apply _ _ _ _ _ _ p q).trans ?_
  show _ = attnArray _ _ _ _ _ (((cfg0.win 6).blk t).view.emb (ix2 p q))
  rw [hemb, attnArray_apply]
  unfold attn rowScores
  exact congrArg₂ (fun s xa => rowOut s xa q)
    (congr (congr (congr (congr (congrArg score (funext fun d => users_apply m c t p d _ rfl))
      (funext fun k => funext fun d => wT_apply m c t d k)) (funext fun k => bias_apply m c t k))
      (funext fun j => funext fun k => itemsT_apply m c t k j)) (funext fun j => adj_apply m c t p j _ rfl))
    (funext fun j => funext fun k => items_apply m c t j k)

/-- An index of the array is in point t's block iff each coordinate is in the block's range. -/
theorem mem_blk (t : Fin cfg0.N) (i : S10000x128.Idx) :
    i ∈ ((cfg0.win 6).blk t).view.set ↔ ∀ a : Fin 2, win0_6.index t a * S80x128.size a ≤ (i a).val ∧ (i a).val < win0_6.index t a * S80x128.size a + S80x128.size a := by
  show i ∈ ((View.whole main_v4).slice (win0_6.rect t)).set ↔ _
  rw [View.set_slice_whole, Rect.mem_set_unit]
  exact Iff.rfl

/-- Every entry of the result array is in the block of the point that owns its 80 rows. -/
theorem cover (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  obtain ⟨t, ht⟩ := idx_onto ⟨(i 0).val / 80, by omega⟩
  have q0 : win0_6.index t (0 : Fin 2) = (i 0).val / 80 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 80 ≤ (i 0).val ∧ (i 0).val < win0_6.index t (0 : Fin 2) * 80 + 80; omega
  | ⟨1, _⟩ => show win0_6.index t (1 : Fin 2) * 128 ≤ (i 1).val ∧ (i 1).val < win0_6.index t (1 : Fin 2) * 128 + 128; omega

/-- The result array after the run is the attention array of the arguments. -/
theorem final (c : Dev nD) : (dats m 0 c).arrAt 6 cfg0.N
    = attnArray (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 6 _ (fun t _ => flushed_eq m c t) cover

/-- The kernel's run: the result array ends as the attention array, the arguments unchanged. -/
theorem run : θ_run defs (onTc (τ := τ) (main (F := Ideal))) ⟨m, fun _ => 0, ρ⟩ fun r => ∀ c : Dev nD,
      r.2.mem ((c : Thread nD τ).loc main_v4)
        = attnArray (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Gat.KernelArray

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.RefRow.lean ====
/-
  The reference, read at an entry.

  Entry (p, c) of the reference's result is the softmax-first arrangement of the attention of user row p
  (`Cert.Gat.softmaxFirst`): the scores of row p are the same function of the same entries as the kernel's — query,
  scaled product with every item, leaky, masked —, the row maximum is a fold of max from −∞ (taken once more against
  −∞, which changes nothing), every weight is divided by the row's total (a sum started from zero), and the result
  is the sum over the items of the normalised weight times the item's feature c.
-/
import proofs.«112014_j67327907332631_2_alg».proof.Proof.Gen.ReferenceIdeal.Read
import proofs.«112014_j67327907332631_2_alg».proof.Proof.LibHostRowMax
import proofs.«112014_j67327907332631_2_alg».proof.Proof.Spec
import Idealize.ShloMosaic.Lib.ValueIdx
import Idealize.ShloMosaic.PureOps.Ideal.Laws

noncomputable section

open scoped BigOperators

namespace Cert.Gat.RefRow

open Cert.ReferenceIdeal Cert.ReferenceIdeal.Gen Cert.ReferenceIdeal.Read Idealize.ShloMosaic Idealize.ShloMosaic.ValueIdx Cert.Math

variable (x0 : (⟨S10000x128, .f32⟩ : BufTy).Contents (Elt Ideal)) (x1 : (⟨S12000x128, .f32⟩ : BufTy).Contents (Elt Ideal))
  (x2 : (⟨S10000x12000, .i32⟩ : BufTy).Contents (Elt Ideal)) (x3 : (⟨S128x128, .f32⟩ : BufTy).Contents (Elt Ideal))
  (x4 : (⟨S128, .f32⟩ : BufTy).Contents (Elt Ideal))

/-- The scores of user row p as the reference's arguments give them. -/
abbrev rowScore (p : Fin 10000) : Fin 12000 → EReal :=
  score (fun d => x0 (ix2 p d)) (fun k d => x3 (ix2 k d)) (fun k => x4 (ix1 k)) (fun j k => x1 (ix2 j k)) (fun j => x2 (ix2 p j))

/-- The query of row p, entry k. -/
theorem query_apply (p : Fin 10000) (k : Fin 128) :
    val_main_v4 (F := Ideal) x0 x3 x4 (ix2 p k)
      = query (fun d => x0 (ix2 p d)) (fun k d => x3 (ix2 k d)) (fun k => x4 (ix1 k)) k := by
  rw [val_main_v4_apply, val_main_v1_apply, val_main_v3_apply, val_main_v2_apply]
  unfold query
  show (_ : EReal) + _ = _ + _
  refine congrArg₂ (· + ·) (Finset.sum_congr rfl fun d _ => ?_) ?_
  · rw [val_main_v0_apply]
    refine congrArg₂ (· * ·) (congrArg x0 ?_) (congrArg x3 ?_)
    · funext a; apply Fin.ext; match a with | ⟨0, _⟩ => rfl | ⟨1, _⟩ => rfl
    · funext a; apply Fin.ext; match a with | ⟨0, _⟩ => rfl | ⟨1, _⟩ => rfl
  · refine congrArg x4 ?_
    funext a; apply Fin.ext; match a with | ⟨0, _⟩ => rfl

/-- The scaled product of row p's query with item j. -/
theorem scaled_apply (p : Fin 10000) (j : Fin 12000) :
    val_main_v8 (F := Ideal) x0 x1 x3 x4 (ix2 p j)
      = scaled (query (fun d => x0 (ix2 p d)) (fun k d => x3 (ix2 k d)) (fun k => x4 (ix1 k))) (fun j k => x1 (ix2 j k)) j := by
  rw [val_main_v8_apply, val_main_v6_apply, val_main_v7_apply, val_main_cst_apply]
  unfold scaled
  show (_ : EReal) * _ = _ * _
  refine congrArg (· * _) (Finset.sum_congr rfl fun k _ => ?_)
  rw [val_main_v5_apply]
  refine congrArg₂ (· * ·) ?_ (congrArg x1 ?_)
  · refine Eq.trans (congrArg (val_main_v4 (F := Ideal) x0 x3 x4) ?_) (query_apply x0 x3 x4 p k)
    funext a; apply Fin.ext; match a with | ⟨0, _⟩ => rfl | ⟨1, _⟩ => rfl
  · funext a; apply Fin.ext; match a with | ⟨0, _⟩ => rfl | ⟨1, _⟩ => rfl

/-- The score of item j for row p. -/
theorem score_apply (p : Fin 10000) (j : Fin 12000) :
    val_main_v16 (F := Ideal) x0 x1 x2 x3 x4 (ix2 p j) = rowScore x0 x1 x2 x3 x4 p j := by
  rw [val_main_v16_apply, val_main_v15_apply, val_main_v14_apply, val_main_c_apply, val_main_v13_apply,
    val_main_v10_apply, val_main_v9_apply, val_main_cst_0_apply, val_main_v12_apply, val_main_v11_apply,
    val_main_cst_1_apply, val_main_call1_v1_apply, val_main_call1_v0_apply, val_main_cst_2_apply, scaled_apply]
  rfl

/-- The maximum of row p: the host's fold from −∞, taken once more against −∞. -/
theorem rowMax_apply (p : Fin 10000) :
    val_main_v19 (F := Ideal) x0 x1 x2 x3 x4 (ix1 p)
      = (Finset.univ : Finset (Fin 12000)).fold max ⊥ (rowScore x0 x1 x2 x3 x4 p) := by
  have hR : S10000x12000.Reduces [1] S10000 := by decide
  have h17 : val_main_v17 (F := Ideal) x0 x1 x2 x3 x4 (ix1 p)
      = (Finset.univ : Finset (Fin 12000)).fold max ⊥ (rowScore x0 x1 x2 x3 x4 p) := by
    unfold val_main_v17
    refine (Cert.HostRowMax.hostReduceMax_row (val_main_v16 (F := Ideal) x0 x1 x2 x3 x4) (val_main_cst_3 (F := Ideal))
      reducesTo_S10000x12000_S10000_d1 hR h_S_ p).trans ?_
    have e0 : val_main_cst_3 (F := Ideal) (Shape.Idx.first h_S_) = ⊥ := ofBits_neg_inf
    rw [e0]
    exact congrArg (fun f => (Finset.univ : Finset (Fin 12000)).fold max ⊥ f)
      (funext fun j => score_apply x0 x1 x2 x3 x4 p j)
  rw [val_main_v19_apply, val_main_v18_apply, val_main_cst_4_apply, h17]
  show max (Ideal.ofBits .f32 0xFF800000#32) _ = _
  rw [ofBits_neg_inf, max_eq_right bot_le]

/-- The weight of item j for row p. -/
theorem weight_apply (p : Fin 10000) (j : Fin 12000) :
    val_main_v23 (F := Ideal) x0 x1 x2 x3 x4 (ix2 p j) = weight (rowScore x0 x1 x2 x3 x4 p) j := by
  rw [val_main_v23_apply, val_main_v22_apply, val_main_v21_apply, val_main_v20_apply, score_apply]
  unfold weight
  refine congrArg (fun m => Ideal.exp (rowScore x0 x1 x2 x3 x4 p j - m)) ?_
  refine Eq.trans (congrArg (val_main_v19 (F := Ideal) x0 x1 x2 x3 x4) ?_) (rowMax_apply x0 x1 x2 x3 x4 p)
  funext a; apply Fin.ext; match a with | ⟨0, _⟩ => rfl

/-- The total weight of row p, as every entry (p, j) of the divisor holds it. -/
theorem total_apply (p : Fin 10000) (j : Fin 12000) :
    val_main_v26 (F := Ideal) x0 x1 x2 x3 x4 (ix2 p j) = ∑ j', weight (rowScore x0 x1 x2 x3 x4 p) j' := by
  rw [val_main_v26_apply, val_main_v25_apply, val_main_v24_apply, val_main_cst_5_apply]
  show Ideal.ofBits .f32 0x00000000#32 + _ = _
  rw [Ideal.ofBits_zero_f32, zero_add]
  refine Finset.sum_congr rfl fun j' _ => ?_
  refine Eq.trans (congrArg (val_main_v23 (F := Ideal) x0 x1 x2 x3 x4) ?_) (weight_apply x0 x1 x2 x3 x4 p j')
  funext a; apply Fin.ext; match a with | ⟨0, _⟩ => rfl | ⟨1, _⟩ => rfl

/-- Entry (p, c) of the reference's result. -/
theorem result_apply (p : Fin 10000) (c : Fin 128) :
    val_main_v28 (F := Ideal) x0 x1 x2 x3 x4 (ix2 p c)
      = softmaxFirst (rowScore x0 x1 x2 x3 x4 p) (fun j c => x1 (ix2 j c)) c := by
  rw [val_main_v28_apply]
  unfold softmaxFirst
  refine Finset.sum_congr rfl fun j _ => ?_
  refine congrArg₂ (· * ·) ?_ (congrArg x1 ?_)
  · have e : lidx_main_v28 (ix2 p c) j = ix2 p j := by
      funext a; apply Fin.ext; match a with | ⟨0, _⟩ => rfl | ⟨1, _⟩ => rfl
    rw [e, val_main_v27_apply, weight_apply, total_apply]
    rfl
  · funext a; apply Fin.ext; match a with | ⟨0, _⟩ => rfl | ⟨1, _⟩ => rfl

end Cert.Gat.RefRow

end
-- ==== Proof.RefWhole.lean ====
/-
  The reference's result array is the attention array, for real inputs.

  Entry by entry the reference computes the softmax-first arrangement of the row's attention; with real user
  features, item features, weights and bias the scores are real, and the two arrangements are the same real.
-/
import proofs.«112014_j67327907332631_2_alg».proof.Proof.RefRow
import proofs.«112014_j67327907332631_2_alg».proof.Proof.Whole

noncomputable section

namespace Cert.Gat.RefWhole

open Cert.ReferenceIdeal Cert.ReferenceIdeal.Gen Cert.ReferenceIdeal.Read Idealize.ShloMosaic Idealize.ShloMosaic.ValueIdx Cert.Math
open Cert.Gat.RefRow

/-- With real float arguments the reference's result is the attention array. -/
theorem result_eq (x0 : (⟨S10000x128, .f32⟩ : BufTy).Contents (Elt Ideal)) (x1 : (⟨S12000x128, .f32⟩ : BufTy).Contents (Elt Ideal))
    (x2 : (⟨S10000x12000, .i32⟩ : BufTy).Contents (Elt Ideal)) (x3 : (⟨S128x128, .f32⟩ : BufTy).Contents (Elt Ideal))
    (x4 : (⟨S128, .f32⟩ : BufTy).Contents (Elt Ideal))
    (h0 : ∀ i, IsReal (x0 i)) (h1 : ∀ i, IsReal (x1 i)) (h3 : ∀ i, IsReal (x3 i)) (h4 : ∀ i, IsReal (x4 i)) :
    val_main_v28 (F := Ideal) x0 x1 x2 x3 x4 = attnArray x0 x1 x2 x3 x4 := by
  funext i
  obtain ⟨p, c, rfl⟩ : ∃ (p : Fin 10000) (c : Fin 128), i = ix2 p c := ⟨i 0, i 1, eq_ix2 i⟩
  rw [result_apply, attnArray_apply]
  exact softmaxFirst_eq_rowOut _ _
    (fun j => isReal_score _ _ _ _ _ (fun d => h0 _) (fun k d => h3 _) (fun k => h4 _) (fun j k => h1 _) j)
    (fun j c => h1 _) c

end Cert.Gat.RefWhole

end
-- ==== Proof.Finite.lean ====
/-
  From the precondition to real entries.

  The precondition says of each float argument that |x| < +∞ at every entry, the four statements joined by "and".
  On the extended reals |x| = max x (−x) < +∞ leaves exactly the reals, so under the precondition every entry of the
  user features, the item features, the weights and the bias is a real number.
-/
import proofs.«112014_j67327907332631_2_alg».proof.Pre_finite_inputs
import proofs.«112014_j67327907332631_2_alg».proof.Proof.Gen.Pre_finite_inputs
import proofs.«112014_j67327907332631_2_alg».proof.Proof.LibRealSums
import Idealize.ShloMosaic.Lib.ReduceAll
import Idealize.ShloMosaic.Lib.Affine
import Idealize.ShloMosaic.Lib.ValueIdx

noncomputable section

namespace Cert.Gat.Finite

open Idealize.ShloMosaic Cert.Math Cert.Pre_finite_inputs

instance : Subsingleton S_.Idx := ⟨fun a b => funext fun d => d.elim0⟩

/-- An extended real whose absolute value compares below the word of +∞ is a real. -/
theorem isReal_of_cmp (x : EReal)
    (h : Ideal.cmp .olt (max x (-x)) (Ideal.ofBits .f32 0x7F800000#32) = 1#1) : IsReal x := by
  rw [ofBits_inf] at h
  apply isReal_of_abs_lt_top
  by_contra hn
  simp [Ideal.cmp, hn] at h

/-- Under the precondition every entry of the four float arguments is a real. -/
theorem entries_real (a0 : FVec Ideal S10000x128 .f32) (a1 : FVec Ideal S12000x128 .f32) (a2 : IVec S10000x12000 32)
    (a3 : FVec Ideal S128x128 .f32) (a4 : FVec Ideal S128 .f32)
    (h : fn (F := Ideal) a0 a1 a2 a3 a4 = fun _ => 1#1) :
    (∀ i, IsReal (a0 i)) ∧ (∀ i, IsReal (a1 i)) ∧ (∀ i, IsReal (a3 i)) ∧ (∀ i, IsReal (a4 i)) := by
  have h0 := congrFun h ValueIdx.ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨fun i => isReal_of_cmp _ (Host.reduce_andi_all _ _ _ _ _ h1 i),
    fun i => isReal_of_cmp _ (Host.reduce_andi_all _ _ _ _ _ h2 i),
    fun i => isReal_of_cmp _ (Host.reduce_andi_all _ _ _ _ _ h3 i),
    fun i => isReal_of_cmp _ (Host.reduce_andi_all _ _ _ _ _ h4 i)⟩

end Cert.Gat.Finite

end
-- ==== Proof.lean ====
/-
  Bipartite graph attention of 10000 users over 12000 items, kernel against reference, on the extended reals.

  Both programs compute, for user row p and feature c,
      out(p, c) = Σ_j softmax_j(s(p, ·)) · inter(j, c),
  where the query is q(p, ·) = ufea(p, ·) · Wᵀ + b, the score s(p, j) is the leaky (slope 2 below zero) scaled product
  q(p, ·) · inter(j, ·) / √128 where adj(p, j) > 0 and the sentinel −9·10¹⁵ elsewhere, and the softmax is taken along
  the items. The kernel works on 80 user rows per grid point with all items resident, forms the unnormalised weights
  e(p, j) = exp(s(p, j) − max_j s(p, j)), multiplies them into the items' features and divides the finished sum by the
  row's total Σ_j e(p, j); the reference divides every weight by the total first and then takes the weighted sum.

  The two arrangements differ by moving the division across a sum, which on the extended reals needs finiteness: under
  the precondition every float input is a real, hence every query, product and score is a real, the weights are
  reals that are not negative, the total is positive, and Σ_j (e_j / L) · v_j = (Σ_j e_j · v_j) / L (`Cert.Math.softmax_div_comm`).
  The narrowing of the matrix products' operands to bf16 is the identity on the extended reals, the scale and the
  sentinel are the same f32 words on both sides, and the reference's second maximum against −∞ changes nothing.

  The pieces: `Spec` (one row's attention and the law), `Whole` (the result array as one function of the arguments),
  `KernelRow` (an entry of a stored block), `KernelArray` (blocks to the array, and the kernel's run), `RefRow` and
  `RefWhole` (the reference read at an entry, and as the array), `Finite` (real entries from the precondition).
-/
import proofs.«112014_j67327907332631_2_alg».proof.Defs
import proofs.«112014_j67327907332631_2_alg».proof.Proof.Gen.Kernel
import proofs.«112014_j67327907332631_2_alg».proof.Proof.Gen.Kernel.Skeleton
import proofs.«112014_j67327907332631_2_alg».proof.Proof.Gen.Kernel.Launch
import proofs.«112014_j67327907332631_2_alg».proof.Proof.Gen.Kernel.Points
import proofs.«112014_j67327907332631_2_alg».proof.Proof.Gen.Kernel.Frame
import proofs.«112014_j67327907332631_2_alg».proof.Proof.Gen.KernelIdeal
import proofs.«112014_j67327907332631_2_alg».proof.Proof.Gen.KernelIdeal.Skeleton
import proofs.«112014_j67327907332631_2_alg».proof.Proof.Gen.KernelIdeal.Launch
import proofs.«112014_j67327907332631_2_alg».proof.Proof.Gen.KernelIdeal.Points
import proofs.«112014_j67327907332631_2_alg».proof.Proof.Gen.KernelIdeal.Frame
import proofs.«112014_j67327907332631_2_alg».proof.Proof.Gen.ReferenceIdeal
import proofs.«112014_j67327907332631_2_alg».proof.Proof.Gen.Pre_finite_inputs
import proofs.«112014_j67327907332631_2_alg».proof.Proof.Gen.KernelIdeal.Value
import proofs.«112014_j67327907332631_2_alg».proof.Proof.Gen.ReferenceIdeal.Run
import proofs.«112014_j67327907332631_2_alg».proof.Proof.Gen.ReferenceIdeal.Read
import proofs.«112014_j67327907332631_2_alg».proof.Proof.KernelArray
import proofs.«112014_j67327907332631_2_alg».proof.Proof.RefWhole
import proofs.«112014_j67327907332631_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the attention array of those arguments: the
    kernel block by block, the reference by the exchange of the normalisation with the weighted sum, which holds
    because the precondition makes every entry real. -/
theorem algebraic : Cert.algebraic_KernelIdeal_ReferenceIdeal := by
  intro m ρ m' ρ' hpre hagree
  refine ⟨_, Cert.Gat.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r3, r4⟩ := Cert.Gat.Finite.entries_real _ _ _ _ _ (hpre c)
  rw [Cert.ReferenceIdeal.Read.val_main_v28_eq, (hagree c).1, (hagree c).2.1, (hagree c).2.2.1, (hagree c).2.2.2.1,
    (hagree c).2.2.2.2]
  exact Cert.Gat.RefWhole.result_eq _ _ _ _ _ r0 r1 r3 r4

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
